-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x64x64 : Shape := ⟨5, ![4, 64, 32, 64, 64]⟩
abbrev S4x32x64x64 : Shape := ⟨4, ![4, 32, 64, 64]⟩
abbrev S_ : Shape := ⟨0, ![]⟩

class Facts : Prop where
  bcast_S_S4x64x32x64x64 : S_.BroadcastsInDim S4x64x32x64x64 (![] : Fin 0 → Fin S4x64x32x64x64.rank)
  reducesTo_S4x64x32x64x64_S_d0_1_2_3_4 : S4x64x32x64x64.ReducesTo [0, 1, 2, 3, 4] S_
  h_S_ : 0 < S_.numel
  bcast_S_S4x32x64x64 : S_.BroadcastsInDim S4x32x64x64 (![] : Fin 0 → Fin S4x32x64x64.rank)
  reducesTo_S4x32x64x64_S_d0_1_2_3 : S4x32x64x64.ReducesTo [0, 1, 2, 3] S_

variable [Facts]

def fn {F : FTy → Type} [FloatOps F] (main_arg0 : FVec F S4x64x32x64x64 .f32) (main_arg1 : FVec F S4x32x64x64 .f32) : IVec S_ 1 :=
  let main_v0 : FVec F S4x64x32x64x64 .f32 := Host.absf main_arg0
  let main_cst : FVec F S_ .f32 := constant S_ .f32 0x7F800000#32
  let main_v1 : FVec F S4x64x32x64x64 .f32 := broadcastInDim S4x64x32x64x64 ![] bcast_S_S4x64x32x64x64 main_cst
  let main_v2 : IVec S4x64x32x64x64 1 := cmpf .olt main_v0 main_v1
  let main_c : IVec S_ 1 := constantI S_ 1 1#1
  let main_v3 : IVec S_ 1 := (fun x v => Host.reduce IntOp.andi x v reducesTo_S4x64x32x64x64_S_d0_1_2_3_4 h_S_) main_v2 main_c
  let main_v4 : FVec F S4x32x64x64 .f32 := Host.absf main_arg1
  let main_cst_0 : FVec F S_ .f32 := constant S_ .f32 0x7F800000#32
  let main_v5 : FVec F S4x32x64x64 .f32 := broadcastInDim S4x32x64x64 ![] bcast_S_S4x32x64x64 main_cst_0
  let main_v6 : IVec S4x32x64x64 1 := cmpf .olt main_v4 main_v5
  let main_c_1 : IVec S_ 1 := constantI S_ 1 1#1
  let main_v7 : IVec S_ 1 := (fun x v => Host.reduce IntOp.andi x v reducesTo_S4x32x64x64_S_d0_1_2_3 h_S_) main_v6 main_c_1
  let main_v8 : IVec S_ 1 := andi main_v3 main_v7
  main_v8
-- ==== Kernel.lean ====
abbrev S4x64x32x64x64 : Shape := ⟨5, ![4, 64, 32, 64, 64]⟩
abbrev S4x32x64x64 : Shape := ⟨4, ![4, 32, 64, 64]⟩
abbrev S4x64x32x4096 : Shape := ⟨4, ![4, 64, 32, 4096]⟩
abbrev S4x32x4096 : Shape := ⟨3, ![4, 32, 4096]⟩
abbrev S1x64x8x4096 : Shape := ⟨4, ![1, 64, 8, 4096]⟩
abbrev S1x8x4096 : Shape := ⟨3, ![1, 8, 4096]⟩
abbrev S64x8x4096 : Shape := ⟨3, ![64, 8, 4096]⟩
abbrev S8x4096 : Shape := ⟨2, ![8, 4096]⟩
abbrev S8 : Shape := ⟨1, ![8]⟩
abbrev S8x1 : Shape := ⟨2, ![8, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x64x32x64x64, .f32⟩
  | .hbm, ⟨1, _⟩ => ⟨S4x32x64x64, .f32⟩
  | .hbm, ⟨2, _⟩ => ⟨S4x64x32x4096, .f32⟩
  | .hbm, ⟨3, _⟩ => ⟨S4x32x4096, .f32⟩
  | .hbm, ⟨4, _⟩ => ⟨S4x64x32x4096, .f32⟩
  | .hbm, ⟨5, _⟩ => ⟨S4x32x4096, .f32⟩
  | .hbm, ⟨6, _⟩ => ⟨S4x64x32x64x64, .f32⟩
  | .hbm, ⟨7, _⟩ => ⟨S4x32x64x64, .f32⟩
  | .local _ .vmem, ⟨0, _⟩ => ⟨S1x64x8x4096, .f32⟩
  | .local _ .vmem, ⟨1, _⟩ => ⟨S1x64x8x4096, .f32⟩
  | .local _ .vmem, ⟨2, _⟩ => ⟨S1x8x4096, .f32⟩
  | .local _ .vmem, ⟨3, _⟩ => ⟨S1x8x4096, .f32⟩
  | .local _ .vmem, ⟨4, _⟩ => ⟨S1x64x8x4096, .f32⟩
  | .local _ .vmem, ⟨5, _⟩ => ⟨S1x64x8x4096, .f32⟩
  | .local _ .vmem, ⟨6, _⟩ => ⟨S1x8x4096, .f32⟩
  | .local _ .vmem, ⟨7, _⟩ => ⟨S1x8x4096, .f32⟩
  | _, _ => ⟨S4x64x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x64x32x64x64_S4x64x32x4096 : S4x64x32x64x64.ShapeCasts S4x64x32x4096
  shapeCasts_S4x32x64x64_S4x32x4096 : S4x32x64x64.ShapeCasts S4x32x4096
  inb_S1x64x8x4096_S1x64x8x4096_0_0_0_0 : ∀ a, (![0, 0, 0, 0] : Fin 4 → Nat) a + S1x64x8x4096.size a ≤ S1x64x8x4096.size a
  h_S1x64x8x4096 : 0 < S1x64x8x4096.numel
  shapeCasts_S1x64x8x4096_S64x8x4096 : S1x64x8x4096.ShapeCasts S64x8x4096
  reduces_S64x8x4096_S8x4096 : S64x8x4096.Reduces [0] S8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  reduces_S8x4096_S8 : S8x4096.Reduces [1] S8
  shapeCasts_S8_S8x1 : S8.ShapeCasts S8x1
  broadcasts_S8x1_S8x4096 : S8x1.Broadcasts S8x4096
  shapeCasts_S8x4096_S1x8x4096 : S8x4096.ShapeCasts S1x8x4096
  broadcasts_S1x8x4096_S64x8x4096 : S1x8x4096.Broadcasts S64x8x4096
  shapeCasts_S64x8x4096_S1x64x8x4096 : S64x8x4096.ShapeCasts S1x64x8x4096
  shapeCasts_S4x64x32x4096_S4x64x32x64x64 : S4x64x32x4096.ShapeCasts S4x64x32x64x64
  shapeCasts_S4x32x4096_S4x32x64x64 : S4x32x4096.ShapeCasts S4x32x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8x4096.size a ≤ S4x64x32x4096.size a
  hwx0_0 : ∀ i : grid0.Coords, EltTy.bits .f32 = 32 ∨ (Rect.block (s := S4x64x32x4096) S1x64x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S4x32x4096.size a
  hwx0_1 : ∀ i : grid0.Coords, EltTy.bits .f32 = 32 ∨ (Rect.block (s := S4x32x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x8x4096.size a ≤ S4x64x32x4096.size a
  hwx0_2 : ∀ i : grid0.Coords, EltTy.bits .f32 = 32 ∨ (Rect.block (s := S4x64x32x4096) S1x64x8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S4x32x4096.size a
  hwx0_3 : ∀ i : grid0.Coords, EltTy.bits .f32 = 32 ∨ (Rect.block (s := S4x32x4096) S1x8x4096.size (cc0_transform_3 i) (hinb0_3 i)).WholeWords (EltTy.packing .f32)

variable [Facts₀]

abbrev win0_0 : Pipeline.Window sig grid0 :=
  Pipeline.Window.ofSpec (Memref.whole main_v0) S1x64x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x8x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x32x64x64 : Shape := ⟨5, ![4, 64, 32, 64, 64]⟩
abbrev S4x32x64x64 : Shape := ⟨4, ![4, 32, 64, 64]⟩
abbrev S_ : Shape := ⟨0, ![]⟩
abbrev S4x32x4096 : Shape := ⟨3, ![4, 32, 4096]⟩
abbrev S4x32 : Shape := ⟨2, ![4, 32]⟩
abbrev S4x32x1 : Shape := ⟨3, ![4, 32, 1]⟩
abbrev S4x1x32x64x64 : Shape := ⟨5, ![4, 1, 32, 64, 64]⟩

abbrev nBuf : Space → Nat
  | .hbm => 46
  | .vmem => 0
  | .smem => 0
  | _ => 0

abbrev bufTy : (tb : Table) → Fin (tcTables nBuf tb) → BufTy
  | .hbm, ⟨0, _⟩ => ⟨S4x64x32x64x64, .f32⟩
  | .hbm, ⟨1, _⟩ => ⟨S4x32x64x64, .f32⟩
  | .hbm, ⟨2, _⟩ => ⟨S_, .f32⟩
  | .hbm, ⟨3, _⟩ => ⟨S4x32x64x64, .f32⟩
  | .hbm, ⟨4, _⟩ => ⟨S_, .f32⟩
  | .hbm, ⟨5, _⟩ => ⟨S4x32x64x64, .f32⟩
  | .hbm, ⟨6, _⟩ => ⟨S4x32x64x64, .f32⟩
  | .hbm, ⟨7, _⟩ => ⟨S4x32x64x64, .f32⟩
  | .hbm, ⟨8, _⟩ => ⟨S4x32x64x64, .f32⟩
  | .hbm, ⟨9, _⟩ => ⟨S_, .f32⟩
  | .hbm, ⟨10, _⟩ => ⟨S4x32x64x64, .f32⟩
  | .hbm, ⟨11, _⟩ => ⟨S4x32x64x64, .f32⟩
  | .hbm, ⟨12, _⟩ => ⟨S_, .f32⟩
  | .hbm, ⟨13, _⟩ => ⟨S4x32x64x64, .f32⟩
  | .hbm, ⟨14, _⟩ => ⟨S4x32x64x64, .f32⟩
  | .hbm, ⟨15, _⟩ => ⟨S_, .f32⟩
  | .hbm, ⟨16, _⟩ => ⟨S4x32x64x64, .f32⟩
  | .hbm, ⟨17, _⟩ => ⟨S4x32x64x64, .f32⟩
  | .hbm, ⟨18, _⟩ => ⟨S4x32x64x64, .f32⟩
  | .hbm, ⟨19, _⟩ => ⟨S_, .f32⟩
  | .hbm, ⟨20, _⟩ => ⟨S4x32x64x64, .f32⟩
  | .hbm, ⟨21, _⟩ => ⟨S4x32x64x64, .f32⟩
  | .hbm, ⟨22, _⟩ => ⟨S_, .f32⟩
  | .hbm, ⟨23, _⟩ => ⟨S4x32x64x64, .f32⟩
  | .hbm, ⟨24, _⟩ => ⟨S4x32x64x64, .f32⟩
  | .hbm, ⟨25, _⟩ => ⟨S4x32x64x64, .f32⟩
  | .hbm, ⟨26, _⟩ => ⟨S4x32x64x64, .f32⟩
  | .hbm, ⟨27, _⟩ => ⟨S4x32x4096, .f32⟩
  | .hbm, ⟨28, _⟩ => ⟨S_, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32x1, .f32⟩
  | .hbm, ⟨34, _⟩ => ⟨S4x32x4096, .f32⟩
  | .hbm, ⟨35, _⟩ => ⟨S4x32x4096, .f32⟩
  | .hbm, ⟨36, _⟩ => ⟨S4x32x4096, .f32⟩
  | .hbm, ⟨37, _⟩ => ⟨S_, .f32⟩
  | .hbm, ⟨38, _⟩ => ⟨S4x32, .f32⟩
  | .hbm, ⟨39, _⟩ => ⟨S4x32x1, .f32⟩
  | .hbm, ⟨40, _⟩ => ⟨S4x32x4096, .f32⟩
  | .hbm, ⟨41, _⟩ => ⟨S4x32x4096, .f32⟩
  | .hbm, ⟨42, _⟩ => ⟨S4x32x64x64, .f32⟩
  | .hbm, ⟨43, _⟩ => ⟨S4x1x32x64x64, .f32⟩
  | .hbm, ⟨44, _⟩ => ⟨S4x64x32x64x64, .f32⟩
  | .hbm, ⟨45, _⟩ => ⟨S4x64x32x64x64, .f32⟩
  | _, _ => ⟨S4x64x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S4x64x32x64x64_S4x32x64x64_d1 : S4x64x32x64x64.ReducesTo [1] S4x32x64x64
  h_S_ : 0 < S_.numel
  bcast_S_S4x32x64x64 : S_.BroadcastsInDim S4x32x64x64 (![] : Fin 0 → Fin S4x32x64x64.rank)
  shapeCasts_S4x32x64x64_S4x32x4096 : S4x32x64x64.ShapeCasts S4x32x4096
  reducesTo_S4x32x4096_S4x32_d2 : S4x32x4096.ReducesTo [2] S4x32
  bcast_S_S4x32 : S_.BroadcastsInDim S4x32 (![] : Fin 0 → Fin S4x32.rank)
  bcast_S4x32_S4x32x1_0_1 : S4x32.BroadcastsInDim S4x32x1 (![0, 1] : Fin 2 → Fin S4x32x1.rank)
  bcast_S4x32x1_S4x32x4096_0_1_2 : S4x32x1.BroadcastsInDim S4x32x4096 (![0, 1, 2] : Fin 3 → Fin S4x32x4096.rank)
  shapeCasts_S4x32x4096_S4x32x64x64 : S4x32x4096.ShapeCasts S4x32x64x64
  bcast_S4x32x64x64_S4x1x32x64x64_0_2_3_4 : S4x32x64x64.BroadcastsInDim S4x1x32x64x64 (![0, 2, 3, 4] : Fin 4 → Fin S4x1x32x64x64.rank)
  bcast_S4x1x32x64x64_S4x64x32x64x64_0_1_2_3_4 : S4x1x32x64x64.BroadcastsInDim S4x64x32x64x64 (![0, 1, 2, 3, 4] : Fin 5 → Fin S4x64x32x64x64.rank)

variable [Facts₀]

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«155774_g22935125361066_feedfinal_598_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«155774_g22935125361066_feedfinal_598_2_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.Spec.lean ====
/-
  What both programs compute, as functions on the extended reals.

  For an input x of shape [4, 64, 32, 64, 64] (batch, channel, frame, and a 64 × 64 plane) and a map s of shape
  [4, 32, 64, 64], flatten each plane to 4096 positions. At a position, the SCORE is
      sigmoid (mean over the 64 channels of x) + sigmoid (max over the 64 channels of x) + s,
  the mean written as the channel sum times one sixty-fourth; the ATTENTION of a frame is the softmax of its 4096
  scores (each score minus the frame's largest, exponentiated, over the frame's sum of those exponentials); the
  OUTPUT is x times the attention of its frame at its position, the same for every channel.
  The definitions are over the flattened arrays ([4, 64, 32, 4096] and [4, 32, 4096]); the results of the
  programs are their recasts to the plane shapes.
-/
import Idealize.ShloMosaic.PureOps.Ideal
import Idealize.ShloMosaic.Lib.ValueIdx

noncomputable section

open scoped BigOperators

namespace Cert.MixA

open Idealize.ShloMosaic Idealize.ShloMosaic.ValueIdx

/-- Minus infinity, as the two programs write it: the value every maximum starts from. -/
abbrev lo : EReal := Ideal.ofBits .f32 0xFF800000#32

/-- One sixty-fourth, as the kernel writes it. -/
abbrev inv64 : EReal := Ideal.ofBits .f32 0x3C800000#32

/-- The score of one position from its channel column and its entry of the added map: the sigmoid of the column's mean,
    plus the sigmoid of the column's maximum, plus the entry. -/
def score {C : ℕ} (col : Fin C → EReal) (s : EReal) : EReal :=
  Ideal.logistic ((∑ c, col c) * inv64) + Ideal.logistic (Finset.univ.fold max lo col) + s

/-- The largest entry of a row (minus infinity for an empty row). -/
def rowMax {Q : ℕ} (f : Fin Q → EReal) : EReal := Finset.univ.fold max lo f

/-- The softmax of a row at one position: the exponential of the entry less the row's maximum, over the sum of those
    exponentials along the row. -/
def softmaxRow {Q : ℕ} (f : Fin Q → EReal) (q : Fin Q) : EReal :=
  Ideal.div (Ideal.exp (f q - rowMax f)) (∑ k, Ideal.exp (f k - rowMax f))

/-- The flattened input and the flattened added map. -/
abbrev XF : Shape := ⟨4, ![4, 64, 32, 4096]⟩
abbrev SF : Shape := ⟨3, ![4, 32, 4096]⟩

/-- The score of position q of frame t of batch b. -/
def fusion (A0 : XF.Idx → EReal) (A1 : SF.Idx → EReal) (b : Fin 4) (t : Fin 32) (q : Fin 4096) : EReal :=
  score (fun c : Fin 64 => A0 (ix4 b c t q)) (A1 (ix3 b t q))

/-- The attention: each frame's scores through the softmax. -/
def attn (A0 : XF.Idx → EReal) (A1 : SF.Idx → EReal) : SF.Idx → EReal :=
  fun i => softmaxRow (fun k => fusion A0 A1 (i 0) (i 1) k) (i 2)

/-- The output: the input times its frame's attention at its position. -/
def out (A0 : XF.Idx → EReal) (A1 : SF.Idx → EReal) : XF.Idx → EReal :=
  fun i => A0 i * attn A0 A1 (ix3 (i 0) (i 2) (i 3))

theorem attn_ix3 (A0 : XF.Idx → EReal) (A1 : SF.Idx → EReal) (b : Fin 4) (t : Fin 32) (q : Fin 4096) :
    attn A0 A1 (ix3 b t q) = softmaxRow (fun k => fusion A0 A1 b t k) q := rfl

theorem out_ix4 (A0 : XF.Idx → EReal) (A1 : SF.Idx → EReal) (b : Fin 4) (c : Fin 64) (t : Fin 32) (q : Fin 4096) :
    out A0 A1 (ix4 b c t q) = A0 (ix4 b c t q) * attn A0 A1 (ix3 b t q) := rfl

/-- A row of a tile whose entries are those of frame t of batch b has that frame's attention: the softmax of a
    frame reads no other frame. -/
theorem softmax_of_rows (A0 : XF.Idx → EReal) (A1 : SF.Idx → EReal) (b : Fin 4) (t : Fin 32)
    (col : Fin 4096 → Fin 64 → EReal) (s : Fin 4096 → EReal)
    (h0 : ∀ k c, col k c = A0 (ix4 b c t k)) (h1 : ∀ k, s k = A1 (ix3 b t k)) (q : Fin 4096) :
    softmaxRow (fun k => score (col k) (s k)) q = attn A0 A1 (ix3 b t q) := by
  rw [attn_ix3]
  refine congrArg (fun f => softmaxRow f q) (funext fun k => ?_)
  unfold fusion
  rw [h1 k]
  exact congrArg (fun g => score g _) (funext fun c => h0 k c)

end Cert.MixA

end
-- ==== Proof.Body.lean ====
/-
  The kernel body's arithmetic at one entry, on the extended reals.

  One grid step holds a [1, 64, 8, 4096] tile of the input (64 channels of 8 frames) and the matching [1, 8, 4096] tile
  of the added map. Its score tile is, at (frame r, position q), the score of the 64-channel column there; its attention
  tile is each frame's row of scores through the softmax; the first store writes the attention tile, the second the input
  tile times the attention tile, the same for every channel. A tile row whose entries are those of one frame of the whole
  arrays therefore holds that frame's attention, and the output entries of that frame.
-/
import proofs.«155774_g22935125361066_feedfinal_598_2_alg».proof.Proof.Gen.KernelIdeal.Skeleton
import proofs.«155774_g22935125361066_feedfinal_598_2_alg».proof.Proof.LibSoftmaxRows
import proofs.«155774_g22935125361066_feedfinal_598_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.MixA

/-- The sigmoid of an array, read at an index. -/
theorem logistic_apply {s : Shape} {φ : FTy} (a : FVec Ideal s φ) (i : s.Idx) : logistic a i = Ideal.logistic (a i) := rfl

/-- The exponential of an array, read at an index. -/
theorem exp_apply {s : Shape} {φ : FTy} (a : FVec Ideal s φ) (i : s.Idx) : exp a i = Ideal.exp (a i) := rfl

variable (x0 : Vec Ideal S1x64x8x4096 .f32) (x1 : Vec Ideal S1x8x4096 .f32)

/-- The tile of scores: sigmoid of the channel sum times 1/64, plus sigmoid of the channel maximum, plus the added map's tile. -/
def scores : FVec Ideal S8x4096 .f32 :=
  addf (addf
      (logistic (mulf (multiReduction .add [0] S8x4096 (k0_pay1 x0) 0x00000000#32 reduces_S64x8x4096_S8x4096 (.inl rfl) rfl)
        (broadcast S8x4096 (Scalar.ofBits (F := Ideal) .f32 0x3C800000#32))))
      (logistic (multiReduction .maximumf [0] S8x4096 (k0_pay1 x0) 0xFF800000#32 reduces_S64x8x4096_S8x4096 (.inl rfl) rfl)))
    (shapeCast S8x4096 x1 shapeCasts_S1x8x4096_S8x4096)

/-- At (r, q) the score tile is the score of the channel column of the input tile there and the added map's entry. -/
theorem scores_apply (r : Fin 8) (q : Fin 4096) :
    scores x0 x1 (ix2 r q) = score (fun c : Fin 64 => x0 (ix4 (0 : Fin 1) c r q)) (x1 (ix3 (0 : Fin 1) r q)) := by
  have hsum : multiReduction .add [0] S8x4096 (k0_pay1 x0) 0x00000000#32 reduces_S64x8x4096_S8x4096 (.inl rfl) rfl (ix2 r q)
      = ∑ c : Fin 64, x0 (ix4 (0 : Fin 1) c r q) :=
    (Cert.SoftmaxRows.leadSum_apply (k0_pay1 x0) 0x00000000#32 reduces_S64x8x4096_S8x4096 (.inl rfl) rfl r q).trans
      (Finset.sum_congr rfl fun c _ => shapeCast_1abc_abc_apply x0 shapeCasts_S1x64x8x4096_S64x8x4096 c r q)
  have hmax : multiReduction .maximumf [0] S8x4096 (k0_pay1 x0) 0xFF800000#32 reduces_S64x8x4096_S8x4096 (.inl rfl) rfl (ix2 r q)
      = (Finset.univ : Finset (Fin 64)).fold max lo (fun c => x0 (ix4 (0 : Fin 1) c r q)) :=
    (Cert.SoftmaxRows.leadMax_apply (k0_pay1 x0) 0xFF800000#32 reduces_S64x8x4096_S8x4096 (.inl rfl) rfl r q).trans
      (congrArg ((Finset.univ : Finset (Fin 64)).fold max lo)
        (funext fun c => shapeCast_1abc_abc_apply x0 shapeCasts_S1x64x8x4096_S64x8x4096 c r q))
  have hs : shapeCast S8x4096 x1 shapeCasts_S1x8x4096_S8x4096 (ix2 r q) = x1 (ix3 (0 : Fin 1) r q) :=
    shapeCast_1ab_ab_apply x1 shapeCasts_S1x8x4096_S8x4096 r q
  unfold scores
  rw [addf_apply, addf_apply, logistic_apply, logistic_apply, mulf_apply, broadcast_apply, hsum, hmax, hs]
  rfl

/-- The attention tile at (r, q): the softmax of row r of the score tile at q. -/
theorem pay2_apply (r : Fin 8) (q : Fin 4096) :
    k0_pay2 x0 x1 (ix2 r q)
      = softmaxRow (fun k : Fin 4096 => score (fun c : Fin 64 => x0 (ix4 (0 : Fin 1) c r k)) (x1 (ix3 (0 : Fin 1) r k))) q := by
  have h := Cert.SoftmaxRows.softmaxRows_apply (scores x0 x1) 0xFF800000#32 reduces_S8x4096_S8 (.inl rfl) rfl rfl
    shapeCasts_S8_S8x1 broadcasts_S8x1_S8x4096 r q
  have e : (fun k : Fin 4096 => scores x0 x1 (ix2 r k))
      = fun k : Fin 4096 => score (fun c : Fin 64 => x0 (ix4 (0 : Fin 1) c r k)) (x1 (ix3 (0 : Fin 1) r k)) :=
    funext fun k => scores_apply x0 x1 r k
  exact h.trans (congrArg (fun f => softmaxRow f q) e)

/-- The first store's value is the attention tile under a leading unit axis. -/
theorem pay3_apply (u : Fin 1) (r : Fin 8) (q : Fin 4096) : k0_pay3 x0 x1 (ix3 u r q) = k0_pay2 x0 x1 (ix2 r q) :=
  shapeCast_ab_1ab_apply (k0_pay2 x0 x1) shapeCasts_S8x4096_S1x8x4096 u r q

/-- The second store's value: the input tile times the attention tile, whatever the channel. -/
theorem pay4_apply (u : Fin 1) (c : Fin 64) (r : Fin 8) (q : Fin 4096) :
    k0_pay4 x0 x1 (ix4 u c r q) = x0 (ix4 (0 : Fin 1) c r q) * k0_pay2 x0 x1 (ix2 r q) := by
  unfold k0_pay4
  refine (shapeCast_abc_1abc_apply _ shapeCasts_S64x8x4096_S1x64x8x4096 u c r q).trans ?_
  exact congrArg₂ (· * ·) (shapeCast_1abc_abc_apply x0 shapeCasts_S1x64x8x4096_S64x8x4096 c r q)
    ((Cert.SoftmaxRows.broadcastTo_1ab_cab_apply _ broadcasts_S1x8x4096_S64x8x4096 c r q).trans
      (shapeCast_ab_1ab_apply (k0_pay2 x0 x1) shapeCasts_S8x4096_S1x8x4096 0 r q))

/-! ## A tile whose rows are frames of the whole arrays -/

/-- If row (y 1) of the two tiles holds frame fr of batch b of the flattened arrays, the first store's value at y is the
    attention of the whole arrays at (b, fr, y 2). -/
theorem pay3_eq_attn (A0 : XF.Idx → EReal) (A1 : SF.Idx → EReal) (y : S1x8x4096.Idx) (i : SF.Idx) (b : Fin 4) (fr : Fin 32)
    (hb : (i 0).val = b.val) (hfr : (i 1).val = fr.val) (hq : (i 2).val = (y 2).val)
    (h0 : ∀ (ch : Fin 64) (k : Fin 4096), x0 (ix4 (0 : Fin 1) ch ⟨(y 1).val, (y 1).isLt⟩ k) = A0 (ix4 b ch fr k))
    (h1 : ∀ k : Fin 4096, x1 (ix3 (0 : Fin 1) ⟨(y 1).val, (y 1).isLt⟩ k) = A1 (ix3 b fr k)) :
    k0_pay3 x0 x1 y = attn A0 A1 i := by
  obtain ⟨u, r, q, rfl⟩ : ∃ (u : Fin 1) (r : Fin 8) (q : Fin 4096), y = ix3 u r q := ⟨y 0, y 1, y 2, eq_ix3 y⟩
  have hi : i = ix3 b fr q := funext fun a => Fin.ext (by
    match a with
    | ⟨0, _⟩ => exact hb
    | ⟨1, _⟩ => exact hfr
    | ⟨2, _⟩ => exact hq)
  rw [hi, pay3_apply, pay2_apply]
  exact softmax_of_rows A0 A1 b fr _ _ (fun k ch => h0 ch k) h1 q

/-- Under the same hypothesis on the row (y 2) of the tiles, the second store's value at y is the output of the whole arrays
    at (b, y 1, fr, y 3). -/
theorem pay4_eq_out (A0 : XF.Idx → EReal) (A1 : SF.Idx → EReal) (y : S1x64x8x4096.Idx) (i : XF.Idx) (b : Fin 4) (fr : Fin 32)
    (hb : (i 0).val = b.val) (hc : (i 1).val = (y 1).val) (hfr : (i 2).val = fr.val) (hq : (i 3).val = (y 3).val)
    (h0 : ∀ (ch : Fin 64) (k : Fin 4096), x0 (ix4 (0 : Fin 1) ch ⟨(y 2).val, (y 2).isLt⟩ k) = A0 (ix4 b ch fr k))
    (h1 : ∀ k : Fin 4096, x1 (ix3 (0 : Fin 1) ⟨(y 2).val, (y 2).isLt⟩ k) = A1 (ix3 b fr k)) :
    k0_pay4 x0 x1 y = out A0 A1 i := by
  obtain ⟨u, c, r, q, rfl⟩ : ∃ (u : Fin 1) (c : Fin 64) (r : Fin 8) (q : Fin 4096), y = ix4 u c r q :=
    ⟨y 0, y 1, y 2, y 3, eq_ix4 y⟩
  have hi : i = ix4 b c fr q := funext fun a => Fin.ext (by
    match a with
    | ⟨0, _⟩ => exact hb
    | ⟨1, _⟩ => exact hc
    | ⟨2, _⟩ => exact hfr
    | ⟨3, _⟩ => exact hq)
  rw [hi, pay4_apply, pay2_apply, out_ix4]
  exact congrArg₂ (· * ·) (h0 c q) (softmax_of_rows A0 A1 b fr _ _ (fun k ch => h0 ch k) h1 q)

end Cert.KernelIdeal.Body

end
-- ==== Proof.Blocks.lean ====
/-
  From the grid's tiles to the whole arrays.

  Grid point (i, j) of the 4 × 4 grid works on batch i and frames 8 j … 8 j + 7: its input tile is entries
  (i, ·, 8 j + r, ·) of the flattened input, its added-map tile entries (i, 8 j + r, ·), and it writes back the same
  entries of the two results. Every row of a tile is a whole frame, and the softmax of a frame reads nothing outside that
  frame, so what a point writes back is its block of ONE function of the whole arrays: the attention, and the output.
  The sixteen blocks tile each result, so after the run the two result arrays of the call are those functions.
-/
import proofs.«155774_g22935125361066_feedfinal_598_2_alg».proof.Proof.Gen.KernelIdeal.Frame
import proofs.«155774_g22935125361066_feedfinal_598_2_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.MixA
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The flattened input and the flattened added map, as the call finds them. -/
abbrev A0 (c : Dev nD) : XF.Idx → EReal := V m c main_v0
abbrev A1 (c : Dev nD) : SF.Idx → EReal := V m c main_v1

/-- The four windows' block indices at a point, decided over the sixteen points: batch and frame-group move together, the
    channel and position axes are whole. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 3) = win0_2.index t (0 : Fin 4) ∧ win0_1.index t (1 : Fin 3) = win0_2.index t (2 : Fin 4)
    ∧ win0_1.index t (2 : Fin 3) = 0
    ∧ win0_3.index t (0 : Fin 3) = win0_2.index t (0 : Fin 4) ∧ win0_3.index t (1 : Fin 3) = win0_2.index t (2 : Fin 4)
    ∧ win0_3.index t (2 : Fin 3) = 0
    ∧ win0_2.index t (1 : Fin 4) = 0 ∧ win0_2.index t (3 : Fin 4) = 0
    ∧ win0_2.index t (0 : Fin 4) < 4 ∧ win0_2.index t (2 : Fin 4) < 4 :=
  (by decide +kernel : ∀ t : Fin grid0.N, _)

/-- Every (batch, frame-group) pair is some point's. -/
theorem idx_onto2 : ∀ (q0 : Fin 4) (q1 : Fin 4), ∃ t : Fin cfg0.N, win0_2.index t = ![q0.val, 0, q1.val, 0] :=
  (by decide +kernel : ∀ (q0 : Fin 4) (q1 : Fin 4), ∃ t : Fin grid0.N, win0_2.index t = ![q0.val, 0, q1.val, 0])
theorem idx_onto3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-! ## The input tiles as entries of the whole arrays -/

/-- The input tile at a point: entry (u, ch, r, k) is the flattened input at (batch, ch, 8 · group + r, k). -/
theorem iblk0_apply (c : Dev nD) (t : Fin cfg0.N) (u : Fin 1) (ch : Fin 64) (r : Fin 8) (k : Fin 4096) (b : Fin 4) (fr : Fin 32)
    (hb : b.val = win0_0.index t (0 : Fin 4)) (h1 : win0_0.index t (1 : Fin 4) = 0)
    (hfr : fr.val = win0_0.index t (2 : Fin 4) * 8 + r.val) (h3 : win0_0.index t (3 : Fin 4) = 0) :
    (iblk m c 0 t : Vec Ideal S1x64x8x4096 .f32) (ix4 u ch r k) = A0 m c (ix4 b ch fr k) := by
  unfold iblk
  rw [View.read_apply]
  show V m c main_v0 _ = V m c main_v0 _
  refine congrArg (V m c main_v0) (funext fun a => Fin.ext ?_)
  have hu := u.isLt
  match a with
  | ⟨0, _⟩ => show win0_0.index t (0 : Fin 4) * 1 + 1 * u.val = b.val; omega
  | ⟨1, _⟩ => show win0_0.index t (1 : Fin 4) * 64 + 1 * ch.val = ch.val; omega
  | ⟨2, _⟩ => show win0_0.index t (2 : Fin 4) * 8 + 1 * r.val = fr.val; omega
  | ⟨3, _⟩ => show win0_0.index t (3 : Fin 4) * 4096 + 1 * k.val = k.val; omega

/-- The added map's tile at a point: entry (u, r, k) is the flattened map at (batch, 8 · group + r, k). -/
theorem iblk1_apply (c : Dev nD) (t : Fin cfg0.N) (u : Fin 1) (r : Fin 8) (k : Fin 4096) (b : Fin 4) (fr : Fin 32)
    (hb : b.val = win0_1.index t (0 : Fin 3)) (hfr : fr.val = win0_1.index t (1 : Fin 3) * 8 + r.val)
    (h2 : win0_1.index t (2 : Fin 3) = 0) :
    (iblk m c 1 t : Vec Ideal S1x8x4096 .f32) (ix3 u r k) = A1 m c (ix3 b fr k) := by
  unfold iblk
  rw [View.read_apply]
  show V m c main_v1 _ = V m c main_v1 _
  refine congrArg (V m c main_v1) (funext fun a => Fin.ext ?_)
  have hu := u.isLt
  match a with
  | ⟨0, _⟩ => show win0_1.index t (0 : Fin 3) * 1 + 1 * u.val = b.val; omega
  | ⟨1, _⟩ => show win0_1.index t (1 : Fin 3) * 8 + 1 * r.val = fr.val; omega
  | ⟨2, _⟩ => show win0_1.index t (2 : Fin 3) * 4096 + 1 * k.val = k.val; omega

/-! ## What a point writes back -/

/-- Point t writes back to the attention array its block of the attention of the whole arrays. -/
theorem flushed3_eq (c : Dev nD) (t : Fin cfg0.N) :
    (dats m 0 c).flushed 3 t = ((cfg0.win 3).blk t).view.read (Elt Ideal) (attn (A0 m c) (A1 m c)) := by
  show (cfg0.win 3).cut (grid0.coords t) ((dats m 0 c).after 3 t) = _
  rw [after0_3]
  unfold out0_3
  rw [View.canon_unit_zero hz3]
  simp only [View.ld_unit_zero (S := S1x64x8x4096) hz4, View.ld_unit_zero (S := S1x8x4096) hz3]
  obtain ⟨e00, e01, e02, e03, e10, e11, e12, e30, e31, e32, e21, e23, l0, l2⟩ := idx_facts t
  funext y
  have hy0 : (y 0).val < 1 := (y 0).isLt
  have hy1 : (y 1).val < 8 := (y 1).isLt
  have hy2 : (y 2).val < 4096 := (y 2).isLt
  refine Body.pay3_eq_attn (iblk m c 0 t) (iblk m c 1 t) (A0 m c) (A1 m c) ((cfg0.win 3).xinj (grid0.coords t) y)
    (((cfg0.win 3).blk t).view.emb y) ⟨win0_2.index t (0 : Fin 4), l0⟩ ⟨win0_2.index t (2 : Fin 4) * 8 + (y 1).val, by omega⟩
    ?_ ?_ ?_ ?_ ?_
  · show win0_3.index t (0 : Fin 3) * 1 + 1 * (y 0).val = win0_2.index t (0 : Fin 4); omega
  · show win0_3.index t (1 : Fin 3) * 8 + 1 * (y 1).val = win0_2.index t (2 : Fin 4) * 8 + (y 1).val; omega
  · show win0_3.index t (2 : Fin 3) * 4096 + 1 * (y 2).val = (y 2).val; omega
  · intro ch k
    exact iblk0_apply m c t 0 ch _ k _ _ e00.symm e01 (by show win0_2.index t (2 : Fin 4) * 8 + (y 1).val = win0_0.index t (2 : Fin 4) * 8 + (y 1).val; omega) e03
  · intro k
    exact iblk1_apply m c t 0 _ k _ _ e10.symm (by show win0_2.index t (2 : Fin 4) * 8 + (y 1).val = win0_1.index t (1 : Fin 3) * 8 + (y 1).val; omega) e12

/-- Point t writes back to the output array its block of the output of the whole arrays. -/
theorem flushed2_eq (c : Dev nD) (t : Fin cfg0.N) :
    (dats m 0 c).flushed 2 t = ((cfg0.win 2).blk t).view.read (Elt Ideal) (out (A0 m c) (A1 m c)) := by
  show (cfg0.win 2).cut (grid0.coords t) ((dats m 0 c).after 2 t) = _
  rw [after0_2]
  unfold out0_2
  rw [View.canon_unit_zero hz4]
  simp only [View.ld_unit_zero (S := S1x64x8x4096) hz4, View.ld_unit_zero (S := S1x8x4096) hz3]
  obtain ⟨e00, e01, e02, e03, e10, e11, e12, e30, e31, e32, e21, e23, l0, l2⟩ := idx_facts t
  funext y
  have hy0 : (y 0).val < 1 := (y 0).isLt
  have hy1 : (y 1).val < 64 := (y 1).isLt
  have hy2 : (y 2).val < 8 := (y 2).isLt
  have hy3 : (y 3).val < 4096 := (y 3).isLt
  refine Body.pay4_eq_out (iblk m c 0 t) (iblk m c 1 t) (A0 m c) (A1 m c) ((cfg0.win 2).xinj (grid0.coords t) y)
    (((cfg0.win 2).blk t).view.emb y) ⟨win0_2.index t (0 : Fin 4), l0⟩ ⟨win0_2.index t (2 : Fin 4) * 8 + (y 2).val, by omega⟩
    ?_ ?_ ?_ ?_ ?_ ?_
  · show win0_2.index t (0 : Fin 4) * 1 + 1 * (y 0).val = win0_2.index t (0 : Fin 4); omega
  · show win0_2.index t (1 : Fin 4) * 64 + 1 * (y 1).val = (y 1).val; omega
  · show win0_2.index t (2 : Fin 4) * 8 + 1 * (y 2).val = win0_2.index t (2 : Fin 4) * 8 + (y 2).val; omega
  · show win0_2.index t (3 : Fin 4) * 4096 + 1 * (y 3).val = (y 3).val; omega
  · intro ch k
    exact iblk0_apply m c t 0 ch _ k _ _ e00.symm e01 (by show win0_2.index t (2 : Fin 4) * 8 + (y 2).val = win0_0.index t (2 : Fin 4) * 8 + (y 2).val; omega) e03
  · intro k
    exact iblk1_apply m c t 0 _ k _ _ e10.symm (by show win0_2.index t (2 : Fin 4) * 8 + (y 2).val = win0_1.index t (1 : Fin 3) * 8 + (y 2).val; omega) e12

/-! ## The blocks tile the arrays -/

theorem mem_blk3 (t : Fin cfg0.N) (i : S4x32x4096.Idx) :
    i ∈ ((cfg0.win 3).blk t).view.set ↔ ∀ a : Fin 3, win0_3.index t a * S1x8x4096.size a ≤ (i a).val
      ∧ (i a).val < win0_3.index t a * S1x8x4096.size a + S1x8x4096.size a := by
  show i ∈ ((View.whole main_v2_1).slice (win0_3.rect t)).set ↔ _
  rw [View.set_slice_whole, Rect.mem_set_unit]
  exact Iff.rfl

theorem mem_blk2 (t : Fin cfg0.N) (i : S4x64x32x4096.Idx) :
    i ∈ ((cfg0.win 2).blk t).view.set ↔ ∀ a : Fin 4, win0_2.index t a * S1x64x8x4096.size a ≤ (i a).val
      ∧ (i a).val < win0_2.index t a * S1x64x8x4096.size a + S1x64x8x4096.size a := by
  show i ∈ ((View.whole main_v2_0).slice (win0_2.rect t)).set ↔ _
  rw [View.set_slice_whole, Rect.mem_set_unit]
  exact Iff.rfl

/-- Every entry of the attention array is in the block of the point of its batch and frame group. -/
theorem cover3 (i : S4x32x4096.Idx) : ∃ t : Fin cfg0.N, (cfg0.win 3).flush t = true ∧ i ∈ ((cfg0.win 3).blk t).view.set := by
  have h0 : (i 0).val < 4 := (i 0).isLt
  have h1 : (i 1).val < 32 := (i 1).isLt
  have h2 : (i 2).val < 4096 := (i 2).isLt
  obtain ⟨t, ht⟩ := idx_onto3 ⟨(i 0).val, h0⟩ ⟨(i 1).val / 8, by omega⟩
  have q0 : win0_3.index t (0 : Fin 3) = (i 0).val := congrFun ht 0
  have q1 : win0_3.index t (1 : Fin 3) = (i 1).val / 8 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 4096 ≤ (i 2).val ∧ (i 2).val < win0_3.index t (2 : Fin 3) * 4096 + 4096; omega

/-- Every entry of the output array is in the block of the point of its batch and frame group. -/
theorem cover2 (i : S4x64x32x4096.Idx) : ∃ t : Fin cfg0.N, (cfg0.win 2).flush t = true ∧ i ∈ ((cfg0.win 2).blk t).view.set := by
  have h0 : (i 0).val < 4 := (i 0).isLt
  have h1 : (i 1).val < 64 := (i 1).isLt
  have h2 : (i 2).val < 32 := (i 2).isLt
  have h3 : (i 3).val < 4096 := (i 3).isLt
  obtain ⟨t, ht⟩ := idx_onto2 ⟨(i 0).val, h0⟩ ⟨(i 2).val / 8, by omega⟩
  have q0 : win0_2.index t (0 : Fin 4) = (i 0).val := congrFun ht 0
  have q1 : win0_2.index t (1 : Fin 4) = 0 := congrFun ht 1
  have q2 : win0_2.index t (2 : Fin 4) = (i 2).val / 8 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 8 ≤ (i 2).val ∧ (i 2).val < win0_2.index t (2 : Fin 4) * 8 + 8; omega
  | ⟨3, _⟩ => show win0_2.index t (3 : Fin 4) * 4096 ≤ (i 3).val ∧ (i 3).val < win0_2.index t (3 : Fin 4) * 4096 + 4096; omega

/-! ## The two result arrays of the call, after the run -/

theorem final3 (c : Dev nD) : (dats m 0 c).arrAt 3 cfg0.N = attn (A0 m c) (A1 m c) :=
  (dats m 0 c).arrAt_eq_of_cover 3 (attn (A0 m c) (A1 m c)) (fun t _ => flushed3_eq m c t) cover3

theorem final2 (c : Dev nD) : (dats m 0 c).arrAt 2 cfg0.N = out (A0 m c) (A1 m c) :=
  (dats m 0 c).arrAt_eq_of_cover 2 (out (A0 m c) (A1 m c)) (fun t _ => flushed2_eq m c t) cover2

end Cert.KernelIdeal.Blocks

end
-- ==== Proof.Results.lean ====
/-
  The two results as functions of the two arguments: flatten each 64 × 64 plane to 4096 positions, take the attention
  and the output of the flattened arrays, and recast them to the plane shapes.
-/
import proofs.«155774_g22935125361066_feedfinal_598_2_alg».proof.Proof.Spec

noncomputable section

namespace Cert.MixA

open Idealize.ShloMosaic

/-- The input's and the added map's shapes. -/
abbrev X5 : Shape := ⟨5, ![4, 64, 32, 64, 64]⟩
abbrev S4 : Shape := ⟨4, ![4, 32, 64, 64]⟩

/-- The attention result: [4, 32, 64, 64]. -/
def attnResult (hX : X5.ShapeCasts XF) (hS : S4.ShapeCasts SF) (hA : SF.ShapeCasts S4) (X : X5.Idx → EReal) (S : S4.Idx → EReal) :
    S4.Idx → EReal :=
  shapeCast S4 (attn (shapeCast XF X hX) (shapeCast SF S hS)) hA

/-- The output result: [4, 64, 32, 64, 64]. -/
def outResult (hX : X5.ShapeCasts XF) (hS : S4.ShapeCasts SF) (hO : XF.ShapeCasts X5) (X : X5.Idx → EReal) (S : S4.Idx → EReal) :
    X5.Idx → EReal :=
  shapeCast X5 (out (shapeCast XF X hX) (shapeCast SF S hS)) hO

end Cert.MixA

end
-- ==== Proof.KernelRun.lean ====
/-
  The kernel program's run, read.

  Before the call the program flattens the two arguments (two reshapes); the call leaves the attention and the output of
  the flattened arrays in its two result arrays; after the call two reshapes recast them to the plane shapes. So the
  program's two results are the specification's, as functions of the arguments.
-/
import proofs.«155774_g22935125361066_feedfinal_598_2_alg».proof.Proof.Blocks
import proofs.«155774_g22935125361066_feedfinal_598_2_alg».proof.Proof.Results
import Idealize.ShloMosaic.Lib.StableHlo.Run

noncomputable section

namespace Cert.KernelIdeal.Run

open Cert.KernelIdeal Cert.KernelIdeal.Gen Cert.KernelIdeal.Blocks Idealize.ShloMosaic Idealize.ShloMosaic.TcCoe Idealize.SL.Sem
open Idealize.ShloMosaic.StableHlo Cert.MixA
open Idealize.ShloMosaic.Pipeline (Dat)

variable (m : (ℓ : Loc nD τ sig) → Buf (Elt Ideal) ℓ) (ρ : Dev nD → PrngReg)

/-- The call finds the input flattened. -/
theorem A0_eq (c : Dev nD) :
    A0 m c = shapeCast S4x64x32x4096 (m ((c : Thread nD τ).loc main_arg0)) shapeCasts_S4x64x32x64x64_S4x64x32x4096 := by
  show StableHlo.after hostOps0 (fun b => m (c, b)) (Proc.devRef .tc main_v0) = _
  after_results
  rfl

/-- The call finds the added map flattened. -/
theorem A1_eq (c : Dev nD) :
    A1 m c = shapeCast S4x32x4096 (m ((c : Thread nD τ).loc main_arg1)) shapeCasts_S4x32x64x64_S4x32x4096 := by
  show StableHlo.after hostOps0 (fun b => m (c, b)) (Proc.devRef .tc main_v1) = _
  after_results
  rfl

/-- The program's first result: the call's output array recast. -/
theorem tail_v3 (c : Dev nD) :
    Pipeline.afterTail₀ cfgs (dats m) 0 (V0 m) [hostOps1] c main_v3
      = shapeCast S4x64x32x64x64 ((dats m 0 c).arrAt 2 cfg0.N) shapeCasts_S4x64x32x4096_S4x64x32x64x64 := by
  unfold Pipeline.afterTail₀
  show StableHlo.after hostOps1 _ (Proc.devRef .tc main_v3) = _
  after_results
  exact congrArg (fun A => shapeCast S4x64x32x64x64 A shapeCasts_S4x64x32x4096_S4x64x32x64x64)
    (Pipeline.withArrays_arr spec0 launch0.win.arr_inj c (V0 m c) (fun w => (dats m 0 c).arrAt w cfg0.N) 2)

/-- The program's second result: the call's attention array recast. -/
theorem tail_v4 (c : Dev nD) :
    Pipeline.afterTail₀ cfgs (dats m) 0 (V0 m) [hostOps1] c main_v4
      = shapeCast S4x32x64x64 ((dats m 0 c).arrAt 3 cfg0.N) shapeCasts_S4x32x4096_S4x32x64x64 := by
  unfold Pipeline.afterTail₀
  show StableHlo.after hostOps1 _ (Proc.devRef .tc main_v4) = _
  after_results
  exact congrArg (fun A => shapeCast S4x32x64x64 A shapeCasts_S4x32x4096_S4x32x64x64)
    (Pipeline.withArrays_arr spec0 launch0.win.arr_inj c (V0 m c) (fun w => (dats m 0 c).arrAt w cfg0.N) 3)

/-- The first result as a function of the arguments. -/
theorem result_v3 (c : Dev nD) :
    Pipeline.afterTail₀ cfgs (dats m) 0 (V0 m) [hostOps1] c main_v3
      = outResult shapeCasts_S4x64x32x64x64_S4x64x32x4096 shapeCasts_S4x32x64x64_S4x32x4096 shapeCasts_S4x64x32x4096_S4x64x32x64x64
          (m ((c : Thread nD τ).loc main_arg0)) (m ((c : Thread nD τ).loc main_arg1)) := by
  rw [tail_v3, final2, A0_eq, A1_eq]
  rfl

/-- The second result as a function of the arguments. -/
theorem result_v4 (c : Dev nD) :
    Pipeline.afterTail₀ cfgs (dats m) 0 (V0 m) [hostOps1] c main_v4
      = attnResult shapeCasts_S4x64x32x64x64_S4x64x32x4096 shapeCasts_S4x32x64x64_S4x32x4096 shapeCasts_S4x32x4096_S4x32x64x64
          (m ((c : Thread nD τ).loc main_arg0)) (m ((c : Thread nD τ).loc main_arg1)) := by
  rw [tail_v4, final3, A0_eq, A1_eq]
  rfl

/-- Every weakly fair execution of the kernel program terminates with the two results at the specification's functions of
    the arguments, the arguments unchanged. -/
theorem run : θ_run defs (onTc (τ := τ) (main (F := Ideal))) ⟨m, fun _ => 0, ρ⟩ fun r => ∀ c : Dev nD,
      r.2.mem ((c.tc : Thread nD τ).loc main_v3)
        = outResult shapeCasts_S4x64x32x64x64_S4x64x32x4096 shapeCasts_S4x32x64x64_S4x32x4096 shapeCasts_S4x64x32x4096_S4x64x32x64x64
            (m ((c : Thread nD τ).loc main_arg0)) (m ((c : Thread nD τ).loc main_arg1))
      ∧ r.2.mem ((c.tc : Thread nD τ).loc main_v4)
        = attnResult shapeCasts_S4x64x32x64x64_S4x64x32x4096 shapeCasts_S4x32x64x64_S4x32x4096 shapeCasts_S4x32x4096_S4x32x64x64
            (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_v3 m c),
       ((h c).2 main_v4 (Pipeline.mem_restRefs_of main_v4 (by decide) (by decide))).trans (result_v4 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.Consts.lean ====
/-
  The four float constants the two programs spell, as the extended reals their bit patterns denote:
  one (the numerator and the added term of the sigmoid the reference writes out), sixty-four (the reference's
  divisor of the channel sum), one sixty-fourth (the kernel's factor on the channel sum), and that dividing by
  sixty-four is multiplying by one sixty-fourth on every extended real.
-/
import Idealize.ShloMosaic.PureOps.Ideal

noncomputable section

namespace Cert.MixA.Consts

open Idealize.ShloMosaic

/-- The pattern of 1.0 denotes 1. -/
theorem ofBits_one : Ideal.ofBits .f32 0x3F800000#32 = 1 := by
  simp [Ideal.ofBits, Ideal.ieee, -EReal.coe_mul]; norm_num

/-- The pattern of 64.0 denotes the real 64. -/
theorem ofBits_64 : Ideal.ofBits .f32 0x42800000#32 = ((64 : ℝ) : EReal) := by
  simp [Ideal.ofBits, Ideal.ieee, -EReal.coe_mul]; norm_num

/-- The pattern of 0.015625 denotes the real 1/64 exactly (it is a power of two). -/
theorem ofBits_inv64 : Ideal.ofBits .f32 0x3C800000#32 = (((1 / 64 : ℝ)) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- A quotient by the pattern of 64.0 is the product with the pattern of 1/64, at every extended real. -/
theorem div_64 (x : EReal) :
    Ideal.div x (Ideal.ofBits .f32 0x42800000#32) = x * Ideal.ofBits .f32 0x3C800000#32 := by
  rw [ofBits_64, ofBits_inv64]
  exact Ideal.div_coe (by norm_num : (64 : ℝ) ≠ 0) x

end Cert.MixA.Consts

end
-- ==== Proof.RefValue.lean ====
/-
  The reference, read at an entry, is the specification.

  Its score of a position is written out: the channel sum over 64 (a quotient, where the kernel multiplies by 1/64: one
  number, since 1/64 is a power of two), the sigmoid as 1 / (1 + exp (−·)), the channel maximum as a fold from minus
  infinity. Flattening the plane sends (w, h) to 64 w + h, so the flattened score at q is the plane's at (q / 64, q % 64).
  The softmax takes the row maximum once more against minus infinity, which changes nothing, and starts its sum from zero.
-/
import proofs.«155774_g22935125361066_feedfinal_598_2_alg».proof.Proof.Gen.ReferenceIdeal.Read
import proofs.«155774_g22935125361066_feedfinal_598_2_alg».proof.Proof.Results
import proofs.«155774_g22935125361066_feedfinal_598_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.MixA

variable (X : S4x64x32x64x64.Idx → EReal) (S : S4x32x64x64.Idx → EReal)

/-- The channel sum at a position: zero plus the sum over the 64 channels. -/
theorem sum_apply (b : Fin 4) (t : Fin 32) (w h : Fin 64) :
    val_main_v0 (F := Ideal) X (ix4 b t w h) = Ideal.ofBits .f32 0x00000000#32 + ∑ c : Fin 64, X (ix5 b c t w h) := by
  rw [val_main_v0_apply]
  refine congrArg₂ (· + ·) rfl (Finset.sum_congr rfl fun c _ => congrArg X (funext fun a => Fin.ext ?_))
  match a with
  | ⟨0, _⟩ => rfl
  | ⟨1, _⟩ => rfl
  | ⟨2, _⟩ => rfl
  | ⟨3, _⟩ => rfl
  | ⟨4, _⟩ => rfl

/-- The channel maximum at a position: the fold of max from minus infinity over the 64 channels. -/
theorem max_apply (b : Fin 4) (t : Fin 32) (w h : Fin 64) :
    val_main_v9 (F := Ideal) X (ix4 b t w h) = (Finset.univ : Finset (Fin 64)).fold max lo (fun c => X (ix5 b c t w h)) := by
  unfold val_main_v9
  refine (Host.reduce_eq_fold_single (FloatOps.maximumf (F := Ideal) (φ := .f32)) X (val_main_cst_3 (F := Ideal)) reducesTo_S4x64x32x64x64_S4x32x64x64_d1
    (by decide) h_S_ (ix4 b t w h)).trans ?_
  refine congrArg ((Finset.univ : Finset (Fin 64)).fold max lo) (funext fun c => congrArg X (funext fun a => Fin.ext ?_))
  rw [Shape.Reduces.lift_val]
  match a with
  | ⟨0, _⟩ => rfl
  | ⟨1, _⟩ => rfl
  | ⟨2, _⟩ => rfl
  | ⟨3, _⟩ => rfl
  | ⟨4, _⟩ => rfl

/-- The reference's score of a position of the plane is the specification's score of its channel column. -/
theorem score_apply (b : Fin 4) (t : Fin 32) (w h : Fin 64) :
    val_main_v17 (F := Ideal) X S (ix4 b t w h) = score (fun c : Fin 64 => X (ix5 b c t w h)) (S (ix4 b t w h)) := by
  rw [val_main_v17_apply, val_main_v16_apply, val_main_v8_apply, val_main_v15_apply, val_main_v7_apply,
    val_main_v14_apply, val_main_cst_2_apply, val_main_cst_5_apply, val_main_v6_apply, val_main_v13_apply,
    val_main_v5_apply, val_main_v12_apply, val_main_cst_1_apply, val_main_cst_4_apply, val_main_v4_apply,
    val_main_v11_apply, val_main_v3_apply, val_main_v10_apply, val_main_v2_apply, val_main_v1_apply,
    val_main_cst_0_apply, sum_apply, max_apply]
  simp only [Ideal.addf_def, Ideal.hostDivf_def, Ideal.hostUnary_exp_def, Ideal.hostNegf_def, Ideal.negf_def, Ideal.ofBits_def]
  rw [Consts.ofBits_one, Consts.ofBits_zero, zero_add, Consts.div_64]
  rfl

variable (hX : S4x64x32x64x64.ShapeCasts XF) (hS : S4x32x64x64.ShapeCasts SF)

/-- The flattened input at (b, c, t, q) is the input at (b, c, t, q / 64, q % 64). -/
theorem flatX_apply (b : Fin 4) (c : Fin 64) (t : Fin 32) (q : Fin 4096) (w h : Fin 64) (hw : w.val = q.val / 64) (hh : h.val = q.val % 64) :
    shapeCast XF X hX (ix4 b c t q) = X (ix5 b c t w h) :=
  shapeCast_apply X hX _ _ (by
    rw [Shape.rowMajor_val_five, Shape.rowMajor_val_four]
    show (((b.val * 64 + c.val) * 32 + t.val) * 64 + w.val) * 64 + h.val = ((b.val * 64 + c.val) * 32 + t.val) * 4096 + q.val
    have := q.isLt; omega)

/-- The flattened added map at (b, t, q) is the map at (b, t, q / 64, q % 64). -/
theorem flatS_apply (b : Fin 4) (t : Fin 32) (q : Fin 4096) (w h : Fin 64) (hw : w.val = q.val / 64) (hh : h.val = q.val % 64) :
    shapeCast SF S hS (ix3 b t q) = S (ix4 b t w h) :=
  shapeCast_apply S hS _ _ (by
    rw [Shape.rowMajor_val_four, Shape.rowMajor_val_three]
    show ((b.val * 32 + t.val) * 64 + w.val) * 64 + h.val = (b.val * 32 + t.val) * 4096 + q.val
    have := q.isLt; omega)

/-- The reference's flattened score is the specification's score of the flattened arrays. -/
theorem fusion_apply (b : Fin 4) (t : Fin 32) (k : Fin 4096) :
    val_main_v18 (F := Ideal) X S (ix3 b t k) = fusion (shapeCast XF X hX) (shapeCast SF S hS) b t k := by
  have hk := k.isLt
  have hi : idx_main_v18 (ix3 b t k) = ix4 b t (⟨k.val / 64, by omega⟩ : Fin 64) (⟨k.val % 64, by omega⟩ : Fin 64) :=
    funext fun a => Fin.ext (by
      have hb := b.isLt
      have ht := t.isLt
      match a with
      | ⟨0, _⟩ => show ((b.val * 32 + t.val) * 4096 + k.val) / 131072 = b.val; omega
      | ⟨1, _⟩ => show ((b.val * 32 + t.val) * 4096 + k.val) / 4096 % 32 = t.val; omega
      | ⟨2, _⟩ => show ((b.val * 32 + t.val) * 4096 + k.val) / 64 % 64 = k.val / 64; omega
      | ⟨3, _⟩ => show ((b.val * 32 + t.val) * 4096 + k.val) % 64 = k.val % 64; omega)
  rw [val_main_v18_apply, hi, score_apply]
  unfold fusion
  exact congrArg₂ score (funext fun c => (flatX_apply X hX b c t k _ _ rfl rfl).symm) (flatS_apply S hS b t k _ _ rfl rfl).symm

/-! ## The softmax of a frame -/

/-- The reference's row maximum, taken once more against minus infinity, is the row's maximum. -/
theorem rowMax_apply (b : Fin 4) (t : Fin 32) :
    val_main_v21 (F := Ideal) X S (ix2 b t) = rowMax (fun k : Fin 4096 => val_main_v18 (F := Ideal) X S (ix3 b t k)) := by
  have h19 : val_main_v19 (F := Ideal) X S (ix2 b t) = rowMax (fun k : Fin 4096 => val_main_v18 (F := Ideal) X S (ix3 b t k)) := by
    unfold val_main_v19
    refine (Host.reduce_eq_fold_single (FloatOps.maximumf (F := Ideal) (φ := .f32)) (val_main_v18 (F := Ideal) X S)
      (val_main_cst_6 (F := Ideal)) reducesTo_S4x32x4096_S4x32_d2 (by decide) h_S_ (ix2 b t)).trans ?_
    unfold rowMax
    refine congrArg ((Finset.univ : Finset (Fin 4096)).fold max lo)
      (funext fun k => congrArg (val_main_v18 (F := Ideal) X S) (funext fun a => Fin.ext ?_))
    rw [Shape.Reduces.lift_val]
    match a with
    | ⟨0, _⟩ => rfl
    | ⟨1, _⟩ => rfl
    | ⟨2, _⟩ => rfl
  rw [val_main_v21_apply, val_main_v20_apply, val_main_cst_7_apply, h19]
  exact max_eq_right ((Finset.le_fold_max lo).mpr (Or.inl le_rfl))

/-- The exponentials of a frame. -/
theorem exp_apply (b : Fin 4) (t : Fin 32) (k : Fin 4096) :
    val_main_v25 (F := Ideal) X S (ix3 b t k)
      = Ideal.exp (val_main_v18 (F := Ideal) X S (ix3 b t k) - rowMax (fun k : Fin 4096 => val_main_v18 (F := Ideal) X S (ix3 b t k))) := by
  have hj : idx_main_v22 (idx_main_v23 (ix3 b t k)) = ix2 b t := funext fun a => Fin.ext (by
    match a with
    | ⟨0, _⟩ => rfl
    | ⟨1, _⟩ => rfl)
  rw [val_main_v25_apply, val_main_v24_apply, val_main_v23_apply, val_main_v22_apply, hj, rowMax_apply]
  rfl

/-- The sum of a frame's exponentials, from zero. -/
theorem expSum_apply (b : Fin 4) (t : Fin 32) (q : Fin 4096) :
    val_main_v28 (F := Ideal) X S (ix3 b t q) = ∑ k : Fin 4096, val_main_v25 (F := Ideal) X S (ix3 b t k) := by
  have hj : idx_main_v27 (idx_main_v28 (ix3 b t q)) = ix2 b t := funext fun a => Fin.ext (by
    match a with
    | ⟨0, _⟩ => rfl
    | ⟨1, _⟩ => rfl)
  rw [val_main_v28_apply, val_main_v27_apply, hj, val_main_v26_apply, val_main_cst_8_apply, Ideal.ofBits_def, Consts.ofBits_zero,
    zero_add]
  refine Finset.sum_congr rfl fun k _ => congrArg (val_main_v25 (F := Ideal) X S) (funext fun a => Fin.ext ?_)
  match a with
  | ⟨0, _⟩ => rfl
  | ⟨1, _⟩ => rfl
  | ⟨2, _⟩ => rfl

/-- The reference's flattened attention is the specification's attention of the flattened arrays. -/
theorem attn_eq : val_main_v29 (F := Ideal) X S = attn (shapeCast XF X hX) (shapeCast SF S hS) := by
  funext i
  obtain ⟨b, t, q, rfl⟩ : ∃ (b : Fin 4) (t : Fin 32) (q : Fin 4096), i = ix3 b t q := ⟨i 0, i 1, i 2, eq_ix3 i⟩
  rw [attn_ix3, val_main_v29_apply, expSum_apply, Ideal.hostDivf_def, exp_apply,
    Finset.sum_congr rfl (fun k _ => exp_apply X S b t k)]
  have e : (fun k : Fin 4096 => val_main_v18 (F := Ideal) X S (ix3 b t k))
      = fun k : Fin 4096 => fusion (shapeCast XF X hX) (shapeCast SF S hS) b t k := funext (fusion_apply X S hX hS b t)
  show softmaxRow (fun k : Fin 4096 => val_main_v18 (F := Ideal) X S (ix3 b t k)) q = _
  exact congrArg (fun f => softmaxRow f q) e

/-! ## The two results -/

/-- The reference's attention result. -/
theorem attnResult_eq (hA : SF.ShapeCasts S4) : val_main_v30 (F := Ideal) X S = attnResult hX hS hA X S := by
  unfold val_main_v30 attnResult
  rw [attn_eq X S hX hS]

/-- The reference's output result. -/
theorem outResult_eq (hA : SF.ShapeCasts S4) (hO : XF.ShapeCasts X5) : val_main_v33 (F := Ideal) X S = outResult hX hS hO X S := by
  funext i
  obtain ⟨b, c, t, w, h, rfl⟩ : ∃ (b : Fin 4) (c : Fin 64) (t : Fin 32) (w h : Fin 64), i = ix5 b c t w h :=
    ⟨i 0, i 1, i 2, i 3, i 4, eq_ix5 i⟩
  have hb := b.isLt
  have hc := c.isLt
  have ht := t.isLt
  have hw := w.isLt
  have hh := h.isLt
  have hj : idx_main_v30 (idx_main_v31 (idx_main_v32 (ix5 b c t w h))) = ix3 b t (⟨w.val * 64 + h.val, by omega⟩ : Fin 4096) :=
    funext fun a => Fin.ext (by
      match a with
      | ⟨0, _⟩ => show (((b.val * 32 + t.val) * 64 + w.val) * 64 + h.val) / 131072 = b.val; omega
      | ⟨1, _⟩ => show (((b.val * 32 + t.val) * 64 + w.val) * 64 + h.val) / 4096 % 32 = t.val; omega
      | ⟨2, _⟩ => show (((b.val * 32 + t.val) * 64 + w.val) * 64 + h.val) % 4096 = w.val * 64 + h.val; omega)
  rw [val_main_v33_apply, val_main_v32_apply, val_main_v31_apply, val_main_v30_apply, hj, attn_eq X S hX hS, Ideal.mulf_def]
  unfold outResult
  refine Eq.trans ?_ (shapeCast_apply (out (shapeCast XF X hX) (shapeCast SF S hS)) hO (ix5 b c t w h)
    (ix4 b c t (⟨w.val * 64 + h.val, by omega⟩ : Fin 4096)) (by
      rw [Shape.rowMajor_val_four, Shape.rowMajor_val_five]
      show ((b.val * 64 + c.val) * 32 + t.val) * 4096 + (w.val * 64 + h.val) = (((b.val * 64 + c.val) * 32 + t.val) * 64 + w.val) * 64 + h.val
      omega)).symm
  rw [out_ix4, flatX_apply X hX b c t _ w h (by show w.val = (w.val * 64 + h.val) / 64; omega) (by show h.val = (w.val * 64 + h.val) % 64; omega)]

end Cert.ReferenceIdeal.RefValue

end
-- ==== Proof.lean ====
/-
  A fused attention kernel against its jnp reference, on the extended reals.

  For an input x [4, 64, 32, 64, 64] and a map s [4, 32, 64, 64], both programs compute, at every position of every frame,
  the score sigmoid (channel mean of x) + sigmoid (channel max of x) + s, push each frame's 4096 scores through a softmax
  (the attention, the second result), and multiply x by its frame's attention (the first result).

  The kernel flattens each 64 × 64 plane to 4096 lanes, and one grid step of its 4 × 4 grid handles 8 whole frames of one
  batch: it multiplies the channel sum by 1/64 where the reference divides by 64 (the same number: 1/64 is a power of two),
  uses the sigmoid as one operation where the reference writes 1 / (1 + exp (−·)) (the same function), and takes each
  frame's maximum once where the reference takes it once more against minus infinity (which changes nothing). Since a
  frame's softmax reads only that frame, each grid step writes its block of one function of the whole arrays, the sixteen
  blocks tile the results, and the two programs end with equal results. No finiteness of the inputs is used: every step
  is an identity on all extended reals.

  The three frames are the generated frame runs; the idealization rewrote nothing, so preserving it is trivial.
-/
import proofs.«155774_g22935125361066_feedfinal_598_2_alg».proof.Defs
import proofs.«155774_g22935125361066_feedfinal_598_2_alg».proof.Proof.Gen.Kernel
import proofs.«155774_g22935125361066_feedfinal_598_2_alg».proof.Proof.Gen.Kernel.Skeleton
import proofs.«155774_g22935125361066_feedfinal_598_2_alg».proof.Proof.Gen.Kernel.Launch
import proofs.«155774_g22935125361066_feedfinal_598_2_alg».proof.Proof.Gen.Kernel.Points
import proofs.«155774_g22935125361066_feedfinal_598_2_alg».proof.Proof.Gen.Kernel.Frame
import proofs.«155774_g22935125361066_feedfinal_598_2_alg».proof.Proof.Gen.KernelIdeal
import proofs.«155774_g22935125361066_feedfinal_598_2_alg».proof.Proof.Gen.KernelIdeal.Skeleton
import proofs.«155774_g22935125361066_feedfinal_598_2_alg».proof.Proof.Gen.KernelIdeal.Launch
import proofs.«155774_g22935125361066_feedfinal_598_2_alg».proof.Proof.Gen.KernelIdeal.Points
import proofs.«155774_g22935125361066_feedfinal_598_2_alg».proof.Proof.Gen.KernelIdeal.Frame
import proofs.«155774_g22935125361066_feedfinal_598_2_alg».proof.Proof.Gen.ReferenceIdeal
import proofs.«155774_g22935125361066_feedfinal_598_2_alg».proof.Proof.Gen.Pre_finite_inputs
import proofs.«155774_g22935125361066_feedfinal_598_2_alg».proof.Proof.Gen.ReferenceIdeal.Run
import proofs.«155774_g22935125361066_feedfinal_598_2_alg».proof.Proof.Gen.ReferenceIdeal.Read
import proofs.«155774_g22935125361066_feedfinal_598_2_alg».proof.Proof.KernelRun
import proofs.«155774_g22935125361066_feedfinal_598_2_alg».proof.Proof.RefValue
import Idealize.ShloMosaic.Adequacy
import Idealize.ShloMosaic.Init

noncomputable section

namespace Cert.Proof

open Idealize.ShloMosaic Idealize.SL.Sem Cert.MixA

/-- The kernel program as printed runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the two arguments, both programs end with the output at `outResult` and the attention at
    `attnResult` of the arguments: the kernel by its run read through the grid's blocks, the reference by its run read entry
    by entry. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1, (h c).2.2.2⟩
  · rw [Cert.ReferenceIdeal.Read.val_main_v33_eq, (hagree c).1, (hagree c).2]
    exact Cert.ReferenceIdeal.RefValue.outResult_eq _ _ _ _ Cert.KernelIdeal.Facts₀.shapeCasts_S4x32x4096_S4x32x64x64 _
  · rw [Cert.ReferenceIdeal.Read.val_main_v30_eq, (hagree c).1, (hagree c).2]
    exact Cert.ReferenceIdeal.RefValue.attnResult_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
